-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8x256 : Shape := ⟨3, ![64, 8, 256]⟩
abbrev S64x4096x512 : Shape := ⟨3, ![64, 4096, 512]⟩
abbrev S8x128 : Shape := ⟨2, ![8, 128]⟩
abbrev S256 : Shape := ⟨1, ![256]⟩
abbrev S256x512 : Shape := ⟨2, ![256, 512]⟩
abbrev S_ : Shape := ⟨0, ![]⟩

class Facts : Prop where
  bcast_S_S64x8x256 : S_.BroadcastsInDim S64x8x256 (![] : Fin 0 → Fin S64x8x256.rank)
  reducesTo_S64x8x256_S_d0_1_2 : S64x8x256.ReducesTo [0, 1, 2] S_
  h_S_ : 0 < S_.numel
  bcast_S_S64x4096x512 : S_.BroadcastsInDim S64x4096x512 (![] : Fin 0 → Fin S64x4096x512.rank)
  reducesTo_S64x4096x512_S_d0_1_2 : S64x4096x512.ReducesTo [0, 1, 2] S_
  bcast_S_S8x128 : S_.BroadcastsInDim S8x128 (![] : Fin 0 → Fin S8x128.rank)
  reducesTo_S8x128_S_d0_1 : S8x128.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_

variable [Facts]

def fn_part2 {F : FTy → Type} [FloatOps F] (main_arg7 : FVec F S256x512 .f32) (main_v33 : IVec S_ 1) : IVec S_ 1 :=
  let main_v34 : FVec F S256x512 .f32 := Host.absf main_arg7
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  main_v38

def fn_part1 {F : FTy → Type} [FloatOps F] (main_arg4 : FVec F S256 .f32) (main_arg5 : FVec F S256 .f32) (main_arg6 : FVec F S256x512 .f32) (main_arg7 : FVec F S256x512 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_v33

def fn {F : FTy → Type} [FloatOps F] (main_arg0 : FVec F S64x8x256 .f32) (main_arg1 : FVec F S64x4096x512 .f32) (main_arg2 : FVec F S8x128 .f32) (main_arg3 : FVec F S8x128 .f32) (main_arg4 : FVec F S256 .f32) (main_arg5 : FVec F S256 .f32) (main_arg6 : FVec F S256x512 .f32) (main_arg7 : FVec F S256x512 .f32) : IVec S_ 1 :=
  let main_v0 : FVec F S64x8x256 .f32 := Host.absf main_arg0
  let main_cst : FVec F S_ .f32 := constant S_ .f32 0x7F800000#32
  let main_v1 : FVec F S64x8x256 .f32 := broadcastInDim S64x8x256 ![] bcast_S_S64x8x256 main_cst
  let main_v2 : IVec S64x8x256 1 := cmpf .olt main_v0 main_v1
  let main_c : IVec S_ 1 := constantI S_ 1 1#1
  let main_v3 : IVec S_ 1 := (fun x v => Host.reduce IntOp.andi x v reducesTo_S64x8x256_S_d0_1_2 h_S_) main_v2 main_c
  let main_v4 : FVec F S64x4096x512 .f32 := Host.absf main_arg1
  let main_cst_0 : FVec F S_ .f32 := constant S_ .f32 0x7F800000#32
  let main_v5 : FVec F S64x4096x512 .f32 := broadcastInDim S64x4096x512 ![] bcast_S_S64x4096x512 main_cst_0
  let main_v6 : IVec S64x4096x512 1 := cmpf .olt main_v4 main_v5
  let main_c_1 : IVec S_ 1 := constantI S_ 1 1#1
  let main_v7 : IVec S_ 1 := (fun x v => Host.reduce IntOp.andi x v reducesTo_S64x4096x512_S_d0_1_2 h_S_) main_v6 main_c_1
  let main_v8 : IVec S_ 1 := andi main_v3 main_v7
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_arg6 main_arg7 main_v13 main_v16
-- ==== Kernel.lean ====
abbrev S64x8x256 : Shape := ⟨3, ![64, 8, 256]⟩
abbrev S64x4096x512 : Shape := ⟨3, ![64, 4096, 512]⟩
abbrev S8x128 : Shape := ⟨2, ![8, 128]⟩
abbrev S256 : Shape := ⟨1, ![256]⟩
abbrev S256x512 : Shape := ⟨2, ![256, 512]⟩
abbrev S64x8x128x2 : Shape := ⟨4, ![64, 8, 128, 2]⟩
abbrev S64x8x128x1 : Shape := ⟨4, ![64, 8, 128, 1]⟩
abbrev S64x8x128 : Shape := ⟨3, ![64, 8, 128]⟩
abbrev S1x8x128 : Shape := ⟨3, ![1, 8, 128]⟩
abbrev S_ : Shape := ⟨0, ![]⟩
abbrev S64x8 : Shape := ⟨2, ![64, 8]⟩
abbrev S64x8x1 : Shape := ⟨3, ![64, 8, 1]⟩
abbrev S1x1x256 : Shape := ⟨3, ![1, 1, 256]⟩
abbrev S512x256 : Shape := ⟨2, ![512, 256]⟩
abbrev S1x8x256 : Shape := ⟨3, ![1, 8, 256]⟩
abbrev S1x1024x512 : Shape := ⟨3, ![1, 1024, 512]⟩
abbrev S8x256 : Shape := ⟨2, ![8, 256]⟩
abbrev S1024x512 : Shape := ⟨2, ![1024, 512]⟩
abbrev S1024x256 : Shape := ⟨2, ![1024, 256]⟩
abbrev S8x1024 : Shape := ⟨2, ![8, 1024]⟩

abbrev nBuf : Space → Nat
  | .hbm => 63
  | .vmem => 9
  | .smem => 0
  | _ => 0

abbrev bufTy : (tb : Table) → Fin (tcTables nBuf tb) → BufTy
  | .hbm, ⟨0, _⟩ => ⟨S64x8x256, .f32⟩
  | .hbm, ⟨1, _⟩ => ⟨S64x4096x512, .f32⟩
  | .hbm, ⟨2, _⟩ => ⟨S8x128, .f32⟩
  | .hbm, ⟨3, _⟩ => ⟨S8x128, .f32⟩
  | .hbm, ⟨4, _⟩ => ⟨S256, .f32⟩
  | .hbm, ⟨5, _⟩ => ⟨S256, .f32⟩
  | .hbm, ⟨6, _⟩ => ⟨S256x512, .f32⟩
  | .hbm, ⟨7, _⟩ => ⟨S256x512, .f32⟩
  | .hbm, ⟨8, _⟩ => ⟨S64x8x128x2, .f32⟩
  | .hbm, ⟨9, _⟩ => ⟨S64x8x128x1, .f32⟩
  | .hbm, ⟨10, _⟩ => ⟨S64x8x128, .f32⟩
  | .hbm, ⟨11, _⟩ => ⟨S64x8x128x1, .f32⟩
  | .hbm, ⟨12, _⟩ => ⟨S64x8x128, .f32⟩
  | .hbm, ⟨13, _⟩ => ⟨S1x8x128, .f32⟩
  | .hbm, ⟨14, _⟩ => ⟨S64x8x128, .f32⟩
  | .hbm, ⟨15, _⟩ => ⟨S64x8x128, .f32⟩
  | .hbm, ⟨16, _⟩ => ⟨S1x8x128, .f32⟩
  | .hbm, ⟨17, _⟩ => ⟨S64x8x128, .f32⟩
  | .hbm, ⟨18, _⟩ => ⟨S64x8x128, .f32⟩
  | .hbm, ⟨19, _⟩ => ⟨S64x8x128, .f32⟩
  | .hbm, ⟨20, _⟩ => ⟨S1x8x128, .f32⟩
  | .hbm, ⟨21, _⟩ => ⟨S64x8x128, .f32⟩
  | .hbm, ⟨22, _⟩ => ⟨S64x8x128, .f32⟩
  | .hbm, ⟨23, _⟩ => ⟨S1x8x128, .f32⟩
  | .hbm, ⟨24, _⟩ => ⟨S64x8x128, .f32⟩
  | .hbm, ⟨25, _⟩ => ⟨S64x8x128, .f32⟩
  | .hbm, ⟨26, _⟩ => ⟨S64x8x128, .f32⟩
  | .hbm, ⟨27, _⟩ => ⟨S64x8x128x1, .f32⟩
  | .hbm, ⟨28, _⟩ => ⟨S64x8x128x1, .f32⟩
  | .hbm, ⟨29, _⟩ => ⟨S64x8x128x2, .f32⟩
  | .hbm, ⟨30, _⟩ => ⟨S64x8x256, .f32⟩
  | .hbm, ⟨31, _⟩ => ⟨S_, .f32⟩
  | .hbm, ⟨32, _⟩ => ⟨S64x8, .f32⟩
  | .hbm, ⟨33, _⟩ => ⟨S64x8x1, .f32⟩
  | .hbm, ⟨34, _⟩ => ⟨S_, .f32⟩
  | .hbm, ⟨35, _⟩ => ⟨S64x8x1, .f32⟩
  | .hbm, ⟨36, _⟩ => ⟨S64x8x1, .f32⟩
  | .hbm, ⟨37, _⟩ => ⟨S64x8x256, .f32⟩
  | .hbm, ⟨38, _⟩ => ⟨S64x8x256, .f32⟩
  | .hbm, ⟨39, _⟩ => ⟨S64x8x256, .f32⟩
  | .hbm, ⟨40, _⟩ => ⟨S_, .f32⟩
  | .hbm, ⟨41, _⟩ => ⟨S64x8, .f32⟩
  | .hbm, ⟨42, _⟩ => ⟨S64x8x1, .f32⟩
  | .hbm, ⟨43, _⟩ => ⟨S_, .f32⟩
  | .hbm, ⟨44, _⟩ => ⟨S64x8x1, .f32⟩
  | .hbm, ⟨45, _⟩ => ⟨S64x8x1, .f32⟩
  | .hbm, ⟨46, _⟩ => ⟨S64x8x256, .f32⟩
  | .hbm, ⟨47, _⟩ => ⟨S64x8x256, .f32⟩
  | .hbm, ⟨48, _⟩ => ⟨S_, .f32⟩
  | .hbm, ⟨49, _⟩ => ⟨S64x8x1, .f32⟩
  | .hbm, ⟨50, _⟩ => ⟨S64x8x1, .f32⟩
  | .hbm, ⟨51, _⟩ => ⟨S64x8x1, .f32⟩
  | .hbm, ⟨52, _⟩ => ⟨S64x8x256, .f32⟩
  | .hbm, ⟨53, _⟩ => ⟨S64x8x256, .f32⟩
  | .hbm, ⟨54, _⟩ => ⟨S1x1x256, .f32⟩
  | .hbm, ⟨55, _⟩ => ⟨S64x8x256, .f32⟩
  | .hbm, ⟨56, _⟩ => ⟨S64x8x256, .f32⟩
  | .hbm, ⟨57, _⟩ => ⟨S1x1x256, .f32⟩
  | .hbm, ⟨58, _⟩ => ⟨S64x8x256, .f32⟩
  | .hbm, ⟨59, _⟩ => ⟨S64x8x256, .f32⟩
  | .hbm, ⟨60, _⟩ => ⟨S512x256, .f32⟩
  | .hbm, ⟨61, _⟩ => ⟨S512x256, .f32⟩
  | .hbm, ⟨62, _⟩ => ⟨S64x8x256, .f32⟩
  | .local _ .vmem, ⟨0, _⟩ => ⟨S1x8x256, .f32⟩
  | .local _ .vmem, ⟨1, _⟩ => ⟨S1x8x256, .f32⟩
  | .local _ .vmem, ⟨2, _⟩ => ⟨S1x1024x512, .f32⟩
  | .local _ .vmem, ⟨3, _⟩ => ⟨S1x1024x512, .f32⟩
  | .local _ .vmem, ⟨4, _⟩ => ⟨S512x256, .f32⟩
  | .local _ .vmem, ⟨5, _⟩ => ⟨S512x256, .f32⟩
  | .local _ .vmem, ⟨6, _⟩ => ⟨S1x8x256, .f32⟩
  | .local _ .vmem, ⟨7, _⟩ => ⟨S1x8x256, .f32⟩
  | .local _ .vmem, ⟨8, _⟩ => ⟨S8x256, .f32⟩
  | _, _ => ⟨S64x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x8x256_S64x8x128x2 : S64x8x256.ShapeCasts S64x8x128x2
  slices_S64x8x128x2_S64x8x128x1_0_0_0_0 : S64x8x128x2.Slices ![0, 0, 0, 0] S64x8x128x1
  shapeCasts_S64x8x128x1_S64x8x128 : S64x8x128x1.ShapeCasts S64x8x128
  slices_S64x8x128x2_S64x8x128x1_0_0_0_1 : S64x8x128x2.Slices ![0, 0, 0, 1] S64x8x128x1
  bcast_S8x128_S1x8x128_1_2 : S8x128.BroadcastsInDim S1x8x128 (![1, 2] : Fin 2 → Fin S1x8x128.rank)
  bcast_S1x8x128_S64x8x128_0_1_2 : S1x8x128.BroadcastsInDim S64x8x128 (![0, 1, 2] : Fin 3 → Fin S64x8x128.rank)
  bcast_S64x8x128_S64x8x128x1_0_1_2 : S64x8x128.BroadcastsInDim S64x8x128x1 (![0, 1, 2] : Fin 3 → Fin S64x8x128x1.rank)
  concatenates_S64x8x128x1_S64x8x128x1_S64x8x128x2_d3 : Shape.Concatenates [S64x8x128x1, S64x8x128x1] S64x8x128x2 3
  shapeCasts_S64x8x128x2_S64x8x256 : S64x8x128x2.ShapeCasts S64x8x256
  reducesTo_S64x8x256_S64x8_d2 : S64x8x256.ReducesTo [2] S64x8
  h_S_ : 0 < S_.numel
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x256_0_1_2 : S64x8x1.BroadcastsInDim S64x8x256 (![0, 1, 2] : Fin 3 → Fin S64x8x256.rank)
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  transposes_S256x512_S512x256_1_0 : S256x512.Transposes [1, 0] S512x256
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S1x8x256 : S8x256.ShapeCasts S1x8x256
  dot_S1024x512_S512x256_S1024x256_1_0_0_1_n_n_wf : DotDims.WF S1024x512 S512x256 S1024x256 [1] [0] [0] [1] [] []
  dot_S8x256_S1024x256_S8x1024_1_1_0_0_n_n_wf : DotDims.WF S8x256 S1024x256 S8x1024 [1] [1] [0] [0] [] []
  dot_S8x1024_S1024x256_S8x256_1_0_0_1_n_n_wf : DotDims.WF S8x1024 S1024x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256.size a ≤ S64x8x256.size a
  hwx0_0 : ∀ i : grid0.Coords, EltTy.bits .f32 = 32 ∨ (Rect.block (s := S64x8x256) S1x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S64x4096x512.size a
  hwx0_1 : ∀ i : grid0.Coords, EltTy.bits .f32 = 32 ∨ (Rect.block (s := S64x4096x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256.size a ≤ S64x8x256.size a
  hwx0_4 : ∀ i : grid0.Coords, EltTy.bits .f32 = 32 ∨ (Rect.block (s := S64x8x256) S1x8x256.size (cc0_transform_4 i) (hinb0_4 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S8x256_S1024x256_S8x1024_1_1_0_0_n_n : DotDims S8x256 S1024x256 S8x1024 where
  lhsContracting := [1]
  rhsContracting := [1]
  lhsNonContracting := [0]
  rhsNonContracting := [0]
  lhsBatch := []
  rhsBatch := []
  wf := dot_S8x256_S1024x256_S8x1024_1_1_0_0_n_n_wf
def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf

abbrev win0_0 : Pipeline.Window sig grid0 :=
  Pipeline.Window.ofSpec (Memref.whole main_v46) S1x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8x256 : Shape := ⟨3, ![64, 8, 256]⟩
abbrev S64x4096x512 : Shape := ⟨3, ![64, 4096, 512]⟩
abbrev S8x128 : Shape := ⟨2, ![8, 128]⟩
abbrev S256 : Shape := ⟨1, ![256]⟩
abbrev S256x512 : Shape := ⟨2, ![256, 512]⟩
abbrev S64x8x128x2 : Shape := ⟨4, ![64, 8, 128, 2]⟩
abbrev S64x8x128x1 : Shape := ⟨4, ![64, 8, 128, 1]⟩
abbrev S64x8x128 : Shape := ⟨3, ![64, 8, 128]⟩
abbrev S1x8x128 : Shape := ⟨3, ![1, 8, 128]⟩
abbrev S_ : Shape := ⟨0, ![]⟩
abbrev S64x8 : Shape := ⟨2, ![64, 8]⟩
abbrev S64x8x1 : Shape := ⟨3, ![64, 8, 1]⟩
abbrev S1x1x256 : Shape := ⟨3, ![1, 1, 256]⟩
abbrev S64x4096x256 : Shape := ⟨3, ![64, 4096, 256]⟩
abbrev S64x8x4096 : Shape := ⟨3, ![64, 8, 4096]⟩

abbrev nBuf : Space → Nat
  | .hbm => 67
  | .vmem => 0
  | .smem => 0
  | _ => 0

abbrev bufTy : (tb : Table) → Fin (tcTables nBuf tb) → BufTy
  | .hbm, ⟨0, _⟩ => ⟨S64x8x256, .f32⟩
  | .hbm, ⟨1, _⟩ => ⟨S64x4096x512, .f32⟩
  | .hbm, ⟨2, _⟩ => ⟨S8x128, .f32⟩
  | .hbm, ⟨3, _⟩ => ⟨S8x128, .f32⟩
  | .hbm, ⟨4, _⟩ => ⟨S256, .f32⟩
  | .hbm, ⟨5, _⟩ => ⟨S256, .f32⟩
  | .hbm, ⟨6, _⟩ => ⟨S256x512, .f32⟩
  | .hbm, ⟨7, _⟩ => ⟨S256x512, .f32⟩
  | .hbm, ⟨8, _⟩ => ⟨S64x8x128x2, .f32⟩
  | .hbm, ⟨9, _⟩ => ⟨S64x8x128x1, .f32⟩
  | .hbm, ⟨10, _⟩ => ⟨S64x8x128, .f32⟩
  | .hbm, ⟨11, _⟩ => ⟨S64x8x128x1, .f32⟩
  | .hbm, ⟨12, _⟩ => ⟨S64x8x128, .f32⟩
  | .hbm, ⟨13, _⟩ => ⟨S1x8x128, .f32⟩
  | .hbm, ⟨14, _⟩ => ⟨S64x8x128, .f32⟩
  | .hbm, ⟨15, _⟩ => ⟨S64x8x128, .f32⟩
  | .hbm, ⟨16, _⟩ => ⟨S1x8x128, .f32⟩
  | .hbm, ⟨17, _⟩ => ⟨S64x8x128, .f32⟩
  | .hbm, ⟨18, _⟩ => ⟨S64x8x128, .f32⟩
  | .hbm, ⟨19, _⟩ => ⟨S64x8x128, .f32⟩
  | .hbm, ⟨20, _⟩ => ⟨S1x8x128, .f32⟩
  | .hbm, ⟨21, _⟩ => ⟨S64x8x128, .f32⟩
  | .hbm, ⟨22, _⟩ => ⟨S64x8x128, .f32⟩
  | .hbm, ⟨23, _⟩ => ⟨S1x8x128, .f32⟩
  | .hbm, ⟨24, _⟩ => ⟨S64x8x128, .f32⟩
  | .hbm, ⟨25, _⟩ => ⟨S64x8x128, .f32⟩
  | .hbm, ⟨26, _⟩ => ⟨S64x8x128, .f32⟩
  | .hbm, ⟨27, _⟩ => ⟨S64x8x128x1, .f32⟩
  | .hbm, ⟨28, _⟩ => ⟨S64x8x128x1, .f32⟩
  | .hbm, ⟨29, _⟩ => ⟨S64x8x128x2, .f32⟩
  | .hbm, ⟨30, _⟩ => ⟨S64x8x256, .f32⟩
  | .hbm, ⟨31, _⟩ => ⟨S_, .f32⟩
  | .hbm, ⟨32, _⟩ => ⟨S64x8, .f32⟩
  | .hbm, ⟨33, _⟩ => ⟨S64x8x1, .f32⟩
  | .hbm, ⟨34, _⟩ => ⟨S_, .f32⟩
  | .hbm, ⟨35, _⟩ => ⟨S64x8x1, .f32⟩
  | .hbm, ⟨36, _⟩ => ⟨S64x8x1, .f32⟩
  | .hbm, ⟨37, _⟩ => ⟨S64x8x256, .f32⟩
  | .hbm, ⟨38, _⟩ => ⟨S64x8x256, .f32⟩
  | .hbm, ⟨39, _⟩ => ⟨S64x8x256, .f32⟩
  | .hbm, ⟨40, _⟩ => ⟨S_, .f32⟩
  | .hbm, ⟨41, _⟩ => ⟨S64x8, .f32⟩
  | .hbm, ⟨42, _⟩ => ⟨S64x8x1, .f32⟩
  | .hbm, ⟨43, _⟩ => ⟨S_, .f32⟩
  | .hbm, ⟨44, _⟩ => ⟨S64x8x1, .f32⟩
  | .hbm, ⟨45, _⟩ => ⟨S64x8x1, .f32⟩
  | .hbm, ⟨46, _⟩ => ⟨S64x8x256, .f32⟩
  | .hbm, ⟨47, _⟩ => ⟨S64x8x256, .f32⟩
  | .hbm, ⟨48, _⟩ => ⟨S_, .f32⟩
  | .hbm, ⟨49, _⟩ => ⟨S64x8x1, .f32⟩
  | .hbm, ⟨50, _⟩ => ⟨S64x8x1, .f32⟩
  | .hbm, ⟨51, _⟩ => ⟨S64x8x1, .f32⟩
  | .hbm, ⟨52, _⟩ => ⟨S64x8x256, .f32⟩
  | .hbm, ⟨53, _⟩ => ⟨S64x8x256, .f32⟩
  | .hbm, ⟨54, _⟩ => ⟨S1x1x256, .f32⟩
  | .hbm, ⟨55, _⟩ => ⟨S64x8x256, .f32⟩
  | .hbm, ⟨56, _⟩ => ⟨S64x8x256, .f32⟩
  | .hbm, ⟨57, _⟩ => ⟨S1x1x256, .f32⟩
  | .hbm, ⟨58, _⟩ => ⟨S64x8x256, .f32⟩
  | .hbm, ⟨59, _⟩ => ⟨S64x8x256, .f32⟩
  | .hbm, ⟨60, _⟩ => ⟨S64x4096x256, .f32⟩
  | .hbm, ⟨61, _⟩ => ⟨S64x4096x256, .f32⟩
  | .hbm, ⟨62, _⟩ => ⟨S64x8x4096, .f32⟩
  | .hbm, ⟨63, _⟩ => ⟨S_, .f32⟩
  | .hbm, ⟨64, _⟩ => ⟨S64x8x4096, .f32⟩
  | .hbm, ⟨65, _⟩ => ⟨S64x8x4096, .f32⟩
  | .hbm, ⟨66, _⟩ => ⟨S64x8x256, .f32⟩
  | _, _ => ⟨S64x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]

class Facts₀ : Prop where
  shapeCasts_S64x8x256_S64x8x128x2 : S64x8x256.ShapeCasts S64x8x128x2
  slices_S64x8x128x2_S64x8x128x1_0_0_0_0 : S64x8x128x2.Slices ![0, 0, 0, 0] S64x8x128x1
  shapeCasts_S64x8x128x1_S64x8x128 : S64x8x128x1.ShapeCasts S64x8x128
  slices_S64x8x128x2_S64x8x128x1_0_0_0_1 : S64x8x128x2.Slices ![0, 0, 0, 1] S64x8x128x1
  bcast_S8x128_S1x8x128_1_2 : S8x128.BroadcastsInDim S1x8x128 (![1, 2] : Fin 2 → Fin S1x8x128.rank)
  bcast_S1x8x128_S64x8x128_0_1_2 : S1x8x128.BroadcastsInDim S64x8x128 (![0, 1, 2] : Fin 3 → Fin S64x8x128.rank)
  bcast_S64x8x128_S64x8x128x1_0_1_2 : S64x8x128.BroadcastsInDim S64x8x128x1 (![0, 1, 2] : Fin 3 → Fin S64x8x128x1.rank)
  concatenates_S64x8x128x1_S64x8x128x1_S64x8x128x2_d3 : Shape.Concatenates [S64x8x128x1, S64x8x128x1] S64x8x128x2 3
  shapeCasts_S64x8x128x2_S64x8x256 : S64x8x128x2.ShapeCasts S64x8x256
  reducesTo_S64x8x256_S64x8_d2 : S64x8x256.ReducesTo [2] S64x8
  h_S_ : 0 < S_.numel
  bcast_S64x8_S64x8x1_0_1 : S64x8.BroadcastsInDim S64x8x1 (![0, 1] : Fin 2 → Fin S64x8x1.rank)
  bcast_S_S64x8x1 : S_.BroadcastsInDim S64x8x1 (![] : Fin 0 → Fin S64x8x1.rank)
  bcast_S64x8x1_S64x8x256_0_1_2 : S64x8x1.BroadcastsInDim S64x8x256 (![0, 1, 2] : Fin 3 → Fin S64x8x256.rank)
  bcast_S256_S1x1x256_2 : S256.BroadcastsInDim S1x1x256 (![2] : Fin 1 → Fin S1x1x256.rank)
  bcast_S1x1x256_S64x8x256_0_1_2 : S1x1x256.BroadcastsInDim S64x8x256 (![0, 1, 2] : Fin 3 → Fin S64x8x256.rank)
  bcast_S_S64x8x4096 : S_.BroadcastsInDim S64x8x4096 (![] : Fin 0 → Fin S64x8x4096.rank)
  dot_S64x4096x512_S256x512_S64x4096x256_2_1_01_0_n_n_wf : DotDims.WF S64x4096x512 S256x512 S64x4096x256 [2] [1] [0, 1] [0] [] []
  dot_S64x8x256_S64x4096x256_S64x8x4096_2_2_1_1_0_0_wf : DotDims.WF S64x8x256 S64x4096x256 S64x8x4096 [2] [2] [1] [1] [0] [0]
  dot_S64x8x4096_S64x4096x256_S64x8x256_2_1_1_2_0_0_wf : DotDims.WF S64x8x4096 S64x4096x256 S64x8x256 [2] [1] [1] [2] [0] [0]

variable [Facts₀]

def dot_S64x4096x512_S256x512_S64x4096x256_2_1_01_0_n_n : DotDims S64x4096x512 S256x512 S64x4096x256 where
  lhsContracting := [2]
  rhsContracting := [1]
  lhsNonContracting := [0, 1]
  rhsNonContracting := [0]
  lhsBatch := []
  rhsBatch := []
  wf := dot_S64x4096x512_S256x512_S64x4096x256_2_1_01_0_n_n_wf
def dot_S64x8x256_S64x4096x256_S64x8x4096_2_2_1_1_0_0 : DotDims S64x8x256 S64x4096x256 S64x8x4096 where
  lhsContracting := [2]
  rhsContracting := [2]
  lhsNonContracting := [1]
  rhsNonContracting := [1]
  lhsBatch := [0]
  rhsBatch := [0]
  wf := dot_S64x8x256_S64x4096x256_S64x8x4096_2_2_1_1_0_0_wf
def dot_S64x8x4096_S64x4096x256_S64x8x256_2_1_1_2_0_0 : DotDims S64x8x4096 S64x4096x256 S64x8x256 where
  lhsContracting := [2]
  rhsContracting := [1]
  lhsNonContracting := [1]
  rhsNonContracting := [2]
  lhsBatch := [0]
  rhsBatch := [0]
  wf := dot_S64x8x4096_S64x4096x256_S64x8x256_2_1_1_2_0_0_wf

class Facts : Prop extends Facts₀ where

variable [Facts]
-- ==== Proof.Spec.lean ====
/-
  The function both programs compute, over the extended reals: an unnormalised cross-attention. For a batch `b`, a
  query row `s` and an output lane `d`, with `K j e = ∑ f, kv b j f · wk e f` and `V j d = ∑ f, kv b j f · wv d f`
  the projections of key position `j`, the result is

      out b s d = ∑ j < 4096, ((∑ e, q b s e · K j e) · (1/16)) · V j d.

  The 4096 key positions are cut into four consecutive tiles of 1024; a sum over all key positions is the sum, over the
  tiles, of the sums inside each tile (only commutativity and associativity of `+`, which hold on the extended reals
  at the infinities too). Dividing by 16 and multiplying by the binary fraction 0.0625 are one function on every
  extended real.
-/
import Idealize.ShloMosaic.PureOps.Ideal
import Idealize.ShloMosaic.Lib.ValueIdx

noncomputable section

namespace Cert.KeyTiles

open Idealize.ShloMosaic Idealize.ShloMosaic.ValueIdx

/-! ## The scale: a quotient by 16 is a product with 0.0625 -/

/-- The pattern of `0.0625` denotes the real `1/16`. -/
theorem ofBits_sixteenth : Ideal.ofBits .f32 0x3D800000#32 = ((1 / 16 : ℝ) : EReal) := by
  simp [Ideal.ofBits, Ideal.ieee, -EReal.coe_mul]; norm_num

/-- The pattern of `16.0` denotes the real `16`. -/
theorem ofBits_sixteen : Ideal.ofBits .f32 0x41800000#32 = ((16 : ℝ) : EReal) := by
  simp [Ideal.ofBits, Ideal.ieee, -EReal.coe_mul]; norm_num

/-- Dividing an extended real by 16 is multiplying it by 1/16, at the infinities too. -/
theorem div_sixteen (x : EReal) :
    Ideal.div x (Ideal.ofBits .f32 0x41800000#32) = x * Ideal.ofBits .f32 0x3D800000#32 := by
  rw [ofBits_sixteen, ofBits_sixteenth, Ideal.div_coe (by norm_num)]

/-! ## The key positions, tile by tile -/

/-- Position `t` of tile `k` is key position `1024·k + t`. -/
def keyIx (k : Fin 4) (t : Fin 1024) : Fin 4096 := ⟨1024 * k.val + t.val, by omega⟩

theorem keyIx_val (k : Fin 4) (t : Fin 1024) : (keyIx k t).val = 1024 * k.val + t.val := rfl

/-- A sum over the 4096 key positions is the sum over the four tiles of the sums inside each tile. -/
theorem sum_keys {M : Type*} [AddCommMonoid M] (f : Fin 4096 → M) :
    ∑ j, f j = ∑ k : Fin 4, ∑ t : Fin 1024, f (keyIx k t) := by
  rw [← Fintype.sum_prod_type' (fun k t => f (keyIx k t))]
  refine (Fintype.sum_equiv (finProdFinEquiv (m := 4) (n := 1024)) _ _ fun p => ?_).symm
  exact congrArg f (Fin.ext (by
    show 1024 * p.1.val + p.2.val = p.2.val + 1024 * p.1.val
    omega))

/-! ## The specification -/

/-- One key position's term of output `(b, s, d)`: the query row's score against the key's projection, scaled, times
    the value projection's lane `d`. -/
def keyTerm (q : (⟨3, ![64, 8, 256]⟩ : Shape).Idx → EReal) (kv : (⟨3, ![64, 4096, 512]⟩ : Shape).Idx → EReal)
    (wk wv : (⟨2, ![256, 512]⟩ : Shape).Idx → EReal) (b : Fin 64) (s : Fin 8) (d : Fin 256) (j : Fin 4096) : EReal :=
  ((∑ e : Fin 256, q (ix3 b s e) * ∑ f : Fin 512, kv (ix3 b j f) * wk (ix2 e f)) * Ideal.ofBits .f32 0x3D800000#32)
    * ∑ f : Fin 512, kv (ix3 b j f) * wv (ix2 d f)

/-- The whole result: at `(b, s, d)` the sum of the key positions' terms. -/
def attn (q : (⟨3, ![64, 8, 256]⟩ : Shape).Idx → EReal) (kv : (⟨3, ![64, 4096, 512]⟩ : Shape).Idx → EReal)
    (wk wv : (⟨2, ![256, 512]⟩ : Shape).Idx → EReal) : (⟨3, ![64, 8, 256]⟩ : Shape).Idx → EReal :=
  fun i => ∑ j : Fin 4096, keyTerm q kv wk wv (i 0) (i 1) (i 2) j

/-- The result as the sum over the four tiles of each tile's 1024 terms. -/
theorem attn_eq_tiles (q : (⟨3, ![64, 8, 256]⟩ : Shape).Idx → EReal) (kv : (⟨3, ![64, 4096, 512]⟩ : Shape).Idx → EReal)
    (wk wv : (⟨2, ![256, 512]⟩ : Shape).Idx → EReal) (b : Fin 64) (s : Fin 8) (d : Fin 256) :
    attn q kv wk wv (ix3 b s d) = ∑ k : Fin 4, ∑ t : Fin 1024, keyTerm q kv wk wv b s d (keyIx k t) :=
  sum_keys _

end Cert.KeyTiles

end
-- ==== Proof.LibPlainMatmul.lean ====
/-
  A plain two-axis matrix product into a zero accumulator, read at an index given by coordinates: for dimension
  numbers that contract the left operand's columns with the right operand's rows, an `[m, k] · [k, n]` product whose
  accumulator is the zero splat reads, at `(r, c)`, the sum over `f` of left `(r, f)` times right `(f, c)` over the
  extended reals — the same sum the host's `dot_general` with these dimension numbers reads there.
-/
import Idealize.ShloMosaic.Lib.ValueIdx
import Idealize.ShloMosaic.PureOps.Ideal.Laws

noncomputable section

namespace Cert.PlainMatmul

open Idealize.ShloMosaic Idealize.ShloMosaic.ValueIdx

/-- For dimension numbers that contract the left operand's columns with the right operand's rows (`hl0` … `hr1`: the
    operand indices at an output index and a contraction position, read off the numbers), an `[m, k] · [k, n]`
    product into the zero accumulator reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision)
    (lhs : FVec Ideal ⟨2, ![m, k]⟩ φ₁) (rhs : FVec Ideal ⟨2, ![k, n]⟩ φ₂) (r : Fin m) (c : Fin n) :
    FloatOps.matmul D prec lhs rhs (constant ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.PlainMatmul

end
-- ==== Proof.LibProjLayout.lean ====
/-
  Layout operations and two matrix products read at an index given by coordinates, for a body that flattens a block of
  `a` matrices into one tall matrix, multiplies, and cuts the result back: a row-major split of the leading axis
  (`[n, c] → [a, b, c]` with `n = a · b`), a run of lanes cut out of the last axis of a rank-3 array, a product of two
  matrices contracted over the LAST axis of both (`[m, k] · [n, k]ᵀ`) into a zero accumulator, and the same product
  batched over a shared leading axis (`[a, m, k] · [a, n, k]ᵀ`), each as the sum over the contracted coordinate.
-/
import Idealize.ShloMosaic.Lib.ValueIdx
import Idealize.ShloMosaic.Lib.Pipeline.Value
import Idealize.ShloMosaic.PureOps.Ideal.Laws

noncomputable section

namespace Cert.ProjLayout

open Idealize.ShloMosaic Idealize.ShloMosaic.ValueIdx

variable {α : Type}

/-! ## The leading axis split, and lanes cut out -/

/-- An `[n, c]` array cast to `[a, b, c]` with `n = a · b` reads, at `(i, j, d)`, the operand at `(r, d)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-- Lanes `o … o + c - 1` cut out of the last axis of an `[a, b, c']` array read, at `(i, j, d)`, the operand at
    `(i, j, q)` with `q = o + d`. -/
theorem laneSlice_apply {a b c c' o : ℕ} (x : (⟨3, ![a, b, c']⟩ : Shape).Idx → α)
    (h : (⟨3, ![a, b, c']⟩ : Shape).Slices ![0, 0, o] ⟨3, ![a, b, c]⟩) (i : Fin a) (j : Fin b) (d : Fin c) (q : Fin c')
    (hq : q.val = o + d.val) :
    extractStridedSlice ⟨3, ![a, b, c]⟩ ![0, 0, o] x h (ix3 i j d) = x (ix3 i j q) :=
  extractStridedSlice_apply _ x h _ _ fun ax => by
    match ax with
    | ⟨0, _⟩ => show i.val = 0 + i.val; omega
    | ⟨1, _⟩ => show j.val = 0 + j.val; omega
    | ⟨2, _⟩ => show q.val = o + d.val; exact hq

/-! ## Products contracted over the last axis of both operands -/

/-- For dimension numbers that contract the columns of both operands (`hl0` … `hr1`: the operand indices at an output
    index and a contraction position, read off the numbers), an `[m, k] · [n, k]ᵀ` product into the zero splat reads, at
    `(r, c)`, the sum over `f` of left `(r, f)` times right `(c, f)`. -/
theorem matmul_zero_rows_apply {m k n : ℕ} {φ₁ φ₂ : FTy}
    (D : DotDims ⟨2, ![m, k]⟩ ⟨2, ![n, k]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (j 1).val)
    (hr1 : ∀ (j : (⟨2, ![m, n]⟩ : Shape).Idx) (q : D.contr.Idx), (D.rhsIdx j q 1).val = (q ⟨0, by omega⟩).val)
    (prec : Option ContractPrecision) (lhs : FVec Ideal ⟨2, ![m, k]⟩ φ₁) (rhs : FVec Ideal ⟨2, ![n, k]⟩ φ₂)
    (r : Fin m) (c : Fin n) :
    matmul D prec lhs rhs (constant (F := Ideal) ⟨2, ![m, n]⟩ .f32 0x00000000#32) (ix2 r c)
      = ∑ f : Fin k, lhs (ix2 r f) * rhs (ix2 c f) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 c f := funext fun ax => Fin.ext (by
    match ax with
    | ⟨0, _⟩ => exact hr0 _ _
    | ⟨1, _⟩ => exact (hr1 _ _).trans hf)
  rw [el, er]

/-- The same product batched over a shared leading axis: `[a, m, k] · [a, n, k]ᵀ` into the zero splat reads, at
    `(b, r, c)`, the sum over `f` of left `(b, r, f)` times right `(b, c, f)`. -/
theorem batchMatmul_zero_rows_apply {a m k n : ℕ} {φ₁ φ₂ : FTy}
    (D : DotDims ⟨3, ![a, m, k]⟩ ⟨3, ![a, n, k]⟩ ⟨3, ![a, m, n]⟩) (hrank : D.contr.rank = 1)
    (hsize : D.contr.size ⟨0, by omega⟩ = k)
    (hl0 : ∀ (j : (⟨3, ![a, m, n]⟩ : Shape).Idx) (q : D.contr.Idx), (D.lhsIdx j q 0).val = (j 0).val)
    (hl1 : ∀ (j : (⟨3, ![a, m, n]⟩ : Shape).Idx) (q : D.contr.Idx), (D.lhsIdx j q 1).val = (j 1).val)
    (hl2 : ∀ (j : (⟨3, ![a, m, n]⟩ : Shape).Idx) (q : D.contr.Idx), (D.lhsIdx j q 2).val = (q ⟨0, by omega⟩).val)
    (hr0 : ∀ (j : (⟨3, ![a, m, n]⟩ : Shape).Idx) (q : D.contr.Idx), (D.rhsIdx j q 0).val = (j 0).val)
    (hr1 : ∀ (j : (⟨3, ![a, m, n]⟩ : Shape).Idx) (q : D.contr.Idx), (D.rhsIdx j q 1).val = (j 2).val)
    (hr2 : ∀ (j : (⟨3, ![a, m, n]⟩ : Shape).Idx) (q : D.contr.Idx), (D.rhsIdx j q 2).val = (q ⟨0, by omega⟩).val)
    (prec : Option ContractPrecision) (lhs : FVec Ideal ⟨3, ![a, m, k]⟩ φ₁) (rhs : FVec Ideal ⟨3, ![a, n, k]⟩ φ₂)
    (b : Fin a) (r : Fin m) (c : Fin n) :
    matmul D prec lhs rhs (constant (F := Ideal) ⟨3, ![a, m, n]⟩ .f32 0x00000000#32) (ix3 b r c)
      = ∑ f : Fin k, lhs (ix3 b r f) * rhs (ix3 b c f) := by
  refine (Ideal.matmul_constant_zero_apply D prec lhs rhs (ix3 b r c)).trans ?_
  rw [← Equiv.sum_comp (contrEquiv1 D k hrank hsize).symm]
  refine Finset.sum_congr rfl fun f _ => ?_
  have hf := contrEquiv1_symm_val D k hrank hsize f
  have el : D.lhsIdx (ix3 b r c) ((contrEquiv1 D k hrank hsize).symm f) = ix3 b r f := funext fun ax => Fin.ext (by
    match ax with
    | ⟨0, _⟩ => exact hl0 _ _
    | ⟨1, _⟩ => exact hl1 _ _
    | ⟨2, _⟩ => exact (hl2 _ _).trans hf)
  have er : D.rhsIdx (ix3 b r c) ((contrEquiv1 D k hrank hsize).symm f) = ix3 b c f := funext fun ax => Fin.ext (by
    match ax with
    | ⟨0, _⟩ => exact hr0 _ _
    | ⟨1, _⟩ => exact hr1 _ _
    | ⟨2, _⟩ => exact (hr2 _ _).trans hf)
  rw [el, er]

end Cert.ProjLayout

end
-- ==== Proof.TileValue.lean ====
/-
  What one grid point adds to the accumulator, read at an index. The body's one arithmetic payload takes the point's
  key/value slab `x` [1, 1024, 512], the two transposed projection matrices `wk`, `wv` [512, 256], the batch's query
  block `q` [1, 8, 256] and the accumulator `acc` [8, 256], and leaves at `(s, d)`

      acc s d + ∑ t < 1024, ((∑ e, q 0 s e · ∑ f, x 0 t f · wk f e) · 0.0625) · ∑ f, x 0 t f · wv f d :

  three matrix products into zero accumulators (the two projections contract the slab's last axis with the matrices'
  first; the scores contract the last axes of the query block and the projected keys; the weighted sum contracts the
  1024 positions), a scaling, and an addition; every change of float format is the identity on the extended reals.
-/
import proofs.«109531_j28166395528048_1_alg».proof.Proof.Gen.KernelIdeal.Skeleton
import proofs.«109531_j28166395528048_1_alg».proof.Proof.LibPlainMatmul
import proofs.«109531_j28166395528048_1_alg».proof.Proof.LibProjLayout
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-- A projection of the slab: `[1024, 512] · [512, 256]` into zero reads, at `(t, e)`, `∑ f, x t f · w f e`. -/
theorem proj_apply (x : FVec Ideal S1024x512 .bf16) (w : FVec Ideal S512x256 .bf16) (t : Fin 1024) (e : Fin 256) :
    matmul dot_S1024x512_S512x256_S1024x256_1_0_0_1_n_n none x w (constant S1024x256 .f32 0x00000000#32) (ix2 t e)
      = ∑ f : Fin 512, x (ix2 t f) * w (ix2 f e) :=
  Cert.PlainMatmul.matmul_zero_ix2_apply dot_S1024x512_S512x256_S1024x256_1_0_0_1_n_n rfl rfl
    (fun j q => by
      unfold DotDims.lhsIdx
      rw [dif_neg (show ¬(0 : Fin S1024x512.rank) ∈ dot_S1024x512_S512x256_S1024x256_1_0_0_1_n_n.lhsBatch by decide),
        dif_pos (show (0 : Fin S1024x512.rank) ∈ dot_S1024x512_S512x256_S1024x256_1_0_0_1_n_n.lhsNonContracting by decide)]
      rfl)
    (fun j q => dot_S1024x512_S512x256_S1024x256_1_0_0_1_n_n.lhsIdx_val_of_single rfl j q)
    (fun j q => dot_S1024x512_S512x256_S1024x256_1_0_0_1_n_n.rhsIdx_val_of_single rfl j q)
    (fun j q => by
      unfold DotDims.rhsIdx
      rw [dif_neg (show ¬(1 : Fin S512x256.rank) ∈ dot_S1024x512_S512x256_S1024x256_1_0_0_1_n_n.rhsBatch by decide),
        dif_pos (show (1 : Fin S512x256.rank) ∈ dot_S1024x512_S512x256_S1024x256_1_0_0_1_n_n.rhsNonContracting by decide)]
      rfl)
    none x w t e

/-- The scores: `[8, 256] · [1024, 256]ᵀ` into zero reads, at `(s, t)`, `∑ e, a s e · k t e`. -/
theorem scores_apply (a : FVec Ideal S8x256 .bf16) (k : FVec Ideal S1024x256 .bf16) (s : Fin 8) (t : Fin 1024) :
    matmul dot_S8x256_S1024x256_S8x1024_1_1_0_0_n_n none a k (constant S8x1024 .f32 0x00000000#32) (ix2 s t)
      = ∑ e : Fin 256, a (ix2 s e) * k (ix2 t e) :=
  Cert.ProjLayout.matmul_zero_rows_apply dot_S8x256_S1024x256_S8x1024_1_1_0_0_n_n rfl rfl
    (fun j q => by
      unfold DotDims.lhsIdx
      rw [dif_neg (show ¬(0 : Fin S8x256.rank) ∈ dot_S8x256_S1024x256_S8x1024_1_1_0_0_n_n.lhsBatch by decide),
        dif_pos (show (0 : Fin S8x256.rank) ∈ dot_S8x256_S1024x256_S8x1024_1_1_0_0_n_n.lhsNonContracting by decide)]
      rfl)
    (fun j q => dot_S8x256_S1024x256_S8x1024_1_1_0_0_n_n.lhsIdx_val_of_single rfl j q)
    (fun j q => by
      unfold DotDims.rhsIdx
      rw [dif_neg (show ¬(0 : Fin S1024x256.rank) ∈ dot_S8x256_S1024x256_S8x1024_1_1_0_0_n_n.rhsBatch by decide),
        dif_pos (show (0 : Fin S1024x256.rank) ∈ dot_S8x256_S1024x256_S8x1024_1_1_0_0_n_n.rhsNonContracting by decide)]
      rfl)
    (fun j q => dot_S8x256_S1024x256_S8x1024_1_1_0_0_n_n.rhsIdx_val_of_single rfl j q)
    none a k s t

/-- The weighted sum: `[8, 1024] · [1024, 256]` into zero reads, at `(s, d)`, `∑ t, p s t · v t d`. -/
theorem weighted_apply (p : FVec Ideal S8x1024 .bf16) (v : FVec Ideal S1024x256 .bf16) (s : Fin 8) (d : Fin 256) :
    matmul dot_S8x1024_S1024x256_S8x256_1_0_0_1_n_n none p v (constant S8x256 .f32 0x00000000#32) (ix2 s d)
      = ∑ t : Fin 1024, p (ix2 s t) * v (ix2 t d) :=
  Cert.PlainMatmul.matmul_zero_ix2_apply dot_S8x1024_S1024x256_S8x256_1_0_0_1_n_n rfl rfl
    (fun j q => by
      unfold DotDims.lhsIdx
      rw [dif_neg (show ¬(0 : Fin S8x1024.rank) ∈ dot_S8x1024_S1024x256_S8x256_1_0_0_1_n_n.lhsBatch by decide),
        dif_pos (show (0 : Fin S8x1024.rank) ∈ dot_S8x1024_S1024x256_S8x256_1_0_0_1_n_n.lhsNonContracting by decide)]
      rfl)
    (fun j q => dot_S8x1024_S1024x256_S8x256_1_0_0_1_n_n.lhsIdx_val_of_single rfl j q)
    (fun j q => dot_S8x1024_S1024x256_S8x256_1_0_0_1_n_n.rhsIdx_val_of_single rfl j q)
    (fun j q => by
      unfold DotDims.rhsIdx
      rw [dif_neg (show ¬(1 : Fin S1024x256.rank) ∈ dot_S8x1024_S1024x256_S8x256_1_0_0_1_n_n.rhsBatch by decide),
        dif_pos (show (1 : Fin S1024x256.rank) ∈ dot_S8x1024_S1024x256_S8x256_1_0_0_1_n_n.rhsNonContracting by decide)]
      rfl)
    none p v s d

/-- The payload at `(s, d)`: the accumulator's entry plus the slab's 1024 scaled score-times-value terms. -/
theorem pay3_apply (x : Vec Ideal S1x1024x512 .f32) (wk wv : Vec Ideal S512x256 .f32) (q : Vec Ideal S1x8x256 .f32)
    (acc : Vec Ideal S8x256 .f32) (s : Fin 8) (d : Fin 256) :
    k0_pay3 (F := Ideal) x wk wv q acc (ix2 s d)
      = acc (ix2 s d) + ∑ t : Fin 1024,
          ((∑ e : Fin 256, q (ix3 (0 : Fin 1) s e) * ∑ f : Fin 512, x (ix3 (0 : Fin 1) t f) * wk (ix2 f e))
              * Ideal.ofBits .f32 0x3D800000#32)
            * ∑ f : Fin 512, x (ix3 (0 : Fin 1) t f) * wv (ix2 f d) := by
  unfold k0_pay3
  simp only [shapeCast_self, addf_apply, weighted_apply, truncf_apply, mulf_apply, broadcast_apply, scores_apply,
    proj_apply, shapeCast_1ab_ab_apply, Ideal.ofBits_def]

end Cert.KernelIdeal.Tile

end
-- ==== Proof.Cases.lean ====
/-
  What the body leaves at a grid point, case by case, as values. At a batch's first key tile the accumulator is first
  stored whole with zeros, read back, and stored again with the tile's contribution added; at the other three tiles it is
  read as the point before left it and stored with the contribution added. In both cases the output block is then the
  accumulator just stored, with a leading unit axis.
-/
import proofs.«109531_j28166395528048_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At a later tile the accumulator ends at the payload over what the point before left. -/
theorem acc_later (c : Dev nD) (i : grid0.Coords) (arg2 : Memref sig .tc .vmem S1x8x256 .f32) (harg2 : arg2.IsWhole) (arg3 : Memref sig .tc .vmem S1x1024x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x8x256 .f32) (harg6 : arg6.IsWhole) (arg7 : Memref sig .tc .vmem S8x256 .f32) (harg7 : arg7.IsWhole) (hc0 : ¬cond0_0 i)
    (x0 : Vec F S1x8x256 .f32) (x1 : Vec F S1x1024x512 .f32) (x2 : Vec F S512x256 .f32) (x3 : Vec F S512x256 .f32) (xs0 : Vec F S8x256 .f32) :
    sout0_B_0 c i arg2 harg2 arg3 harg3 arg4 harg4 arg5 harg5 arg6 harg6 arg7 harg7 hc0 x0 x1 x2 x3 xs0 = k0_pay3 x1 x2 x3 x0 xs0 := by
  unfold sout0_B_0
  rw [View.read_writes_eq_canon _ _ _ (scover0_B_0 c i arg2 harg2 arg3 harg3 arg4 harg4 arg5 harg5 arg6 harg6 arg7 harg7 hc0 x0 x1 x2 x3 xs0)]
  unfold kernelRun0_B
  dsimp only
  sl_unfold_words
  rw [View.canon_unit_zero hz2]
  simp only [View.readAt_eq_ld, harg2.read_unread, harg3.read_unread, harg4.read_unread, harg5.read_unread,
    harg7.read_unread, View.ld_unit_zero (S := S8x256) hz2, View.ld_unit_zero (S := S512x256) hz2,
    View.ld_unit_zero (S := S1x8x256) hz3, View.ld_unit_zero (S := S1x1024x512) hz3]

/-- At a later tile the output block ends at the accumulator just stored, with a leading unit axis. -/
theorem out_later (c : Dev nD) (i : grid0.Coords) (arg2 : Memref sig .tc .vmem S1x8x256 .f32) (harg2 : arg2.IsWhole) (arg3 : Memref sig .tc .vmem S1x1024x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x8x256 .f32) (harg6 : arg6.IsWhole) (arg7 : Memref sig .tc .vmem S8x256 .f32) (harg7 : arg7.IsWhole) (hc0 : ¬cond0_0 i)
    (x0 : Vec F S1x8x256 .f32) (x1 : Vec F S1x1024x512 .f32) (x2 : Vec F S512x256 .f32) (x3 : Vec F S512x256 .f32) (xs0 : Vec F S8x256 .f32) :
    out0_B_4 c i arg2 harg2 arg3 harg3 arg4 harg4 arg5 harg5 arg6 harg6 arg7 harg7 hc0 x0 x1 x2 x3 xs0 = k0_pay1 (k0_pay3 x1 x2 x3 x0 xs0) := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero (S := S1x8x256) hz3, View.readCov_unit_zero (S := S8x256) _ hz2]
  simp only [View.readAt_eq_ld, harg2.read_unread, harg3.read_unread, harg4.read_unread, harg5.read_unread,
    harg7.read_unread, View.ld_unit_zero (S := S8x256) hz2, View.ld_unit_zero (S := S512x256) hz2,
    View.ld_unit_zero (S := S1x8x256) hz3, View.ld_unit_zero (S := S1x1024x512) hz3]

/-- At a batch's first tile the accumulator ends at the payload over the zero block. -/
theorem acc_first (c : Dev nD) (i : grid0.Coords) (arg2 : Memref sig .tc .vmem S1x8x256 .f32) (harg2 : arg2.IsWhole) (arg3 : Memref sig .tc .vmem S1x1024x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x8x256 .f32) (harg6 : arg6.IsWhole) (arg7 : Memref sig .tc .vmem S8x256 .f32) (harg7 : arg7.IsWhole) (hc0 : cond0_0 i)
    (x0 : Vec F S1x8x256 .f32) (x1 : Vec F S1x1024x512 .f32) (x2 : Vec F S512x256 .f32) (x3 : Vec F S512x256 .f32) :
    sout0_A_0 c i arg2 harg2 arg3 harg3 arg4 harg4 arg5 harg5 arg6 harg6 arg7 harg7 hc0 x0 x1 x2 x3 = k0_pay3 x1 x2 x3 x0 (k0_pay2 (F := F)) := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_cons_unit_zero (S := S8x256) hz2, View.readCov_unit_zero (S := S8x256) _ hz2]
  simp only [View.readAt_eq_ld, harg2.read_unread, harg3.read_unread, harg4.read_unread, harg5.read_unread,
    harg7.read_unread, View.ld_unit_zero (S := S8x256) hz2, View.ld_unit_zero (S := S512x256) hz2,
    View.ld_unit_zero (S := S1x8x256) hz3, View.ld_unit_zero (S := S1x1024x512) hz3]

/-- At a batch's first tile the output block ends at the accumulator just stored, with a leading unit axis. -/
theorem out_first (c : Dev nD) (i : grid0.Coords) (arg2 : Memref sig .tc .vmem S1x8x256 .f32) (harg2 : arg2.IsWhole) (arg3 : Memref sig .tc .vmem S1x1024x512 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1x8x256 .f32) (harg6 : arg6.IsWhole) (arg7 : Memref sig .tc .vmem S8x256 .f32) (harg7 : arg7.IsWhole) (hc0 : cond0_0 i)
    (x0 : Vec F S1x8x256 .f32) (x1 : Vec F S1x1024x512 .f32) (x2 : Vec F S512x256 .f32) (x3 : Vec F S512x256 .f32) :
    out0_A_4 c i arg2 harg2 arg3 harg3 arg4 harg4 arg5 harg5 arg6 harg6 arg7 harg7 hc0 x0 x1 x2 x3 = k0_pay1 (k0_pay3 x1 x2 x3 x0 (k0_pay2 (F := F))) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_unit_zero (S := S1x8x256) hz3, View.readCov_cons_toLoadRect, View.readCov_unit_zero (S := S8x256) _ hz2]
  simp only [View.readAt_eq_ld, harg2.read_unread, harg3.read_unread, harg4.read_unread, harg5.read_unread,
    harg7.read_unread, View.ld_unit_zero (S := S8x256) hz2, View.ld_unit_zero (S := S512x256) hz2,
    View.ld_unit_zero (S := S1x8x256) hz3, View.ld_unit_zero (S := S1x1024x512) hz3]

end Cert.KernelIdeal.Cases

end
-- ==== Proof.Blocks.lean ====
/-
  Which entries of the arrays a grid point's blocks hold. The grid is 64 batches by 4 key tiles, walked tile-fastest:
  point `t` is tile `t % 4` of batch `t / 4`. There the query window holds the batch's 8 query rows, the key/value
  window the batch's rows `1024·(t % 4) … 1024·(t % 4) + 1023`, the two weight windows the whole transposed matrices,
  and the output window stands on the batch's 8 output rows.
-/
import proofs.«109531_j28166395528048_1_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The printed index maps, decided once over the grid: the batch is `t / 4`, the key tile `t % 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = 0 :=
  (by decide +kernel : ∀ t : Fin grid0.N, _)

/-- The query block at point `t` is batch `t / 4`'s rows of the query array. -/
theorem query_block (c : Dev nD) (t : Fin cfg0.N) (b : Fin 64) (hb : b.val = t.val / 4) (u : Fin 1) (s : Fin 8) (e : Fin 256) :
    (iblk m c 0 t : Vec F S1x8x256 .f32) (ix3 u s e) = V m c main_v46 (ix3 b s e) := by
  obtain ⟨e0, e1, e2, -⟩ := idx_facts t
  have hu : u.val = 0 := by omega
  unfold iblk
  rw [View.read_apply]
  show V m c main_v46 (((cfg0.win 0).blk t).view.emb (ix3 u s e)) = V m c main_v46 (ix3 b s e)
  refine congrArg (V m c main_v46) (funext fun a => Fin.ext ?_)
  match a with
  | ⟨0, _⟩ => show win0_0.index t (0 : Fin 3) * 1 + 1 * u.val = b.val; omega
  | ⟨1, _⟩ => show win0_0.index t (1 : Fin 3) * 8 + 1 * s.val = s.val; omega
  | ⟨2, _⟩ => show win0_0.index t (2 : Fin 3) * 256 + 1 * e.val = e.val; omega

/-- The key/value slab at point `t` is rows `1024·(t % 4) + r` of batch `t / 4`. -/
theorem slab_block (c : Dev nD) (t : Fin cfg0.N) (b : Fin 64) (hb : b.val = t.val / 4) (j : Fin 4096) (u : Fin 1)
    (r : Fin 1024) (hj : j.val = 1024 * (t.val % 4) + r.val) (f : Fin 512) :
    (iblk m c 1 t : Vec F S1x1024x512 .f32) (ix3 u r f) = m ((c : Thread nD τ).loc main_arg1) (ix3 b j f) := by
  obtain ⟨-, -, -, e0, e1, e2, -⟩ := idx_facts t
  have hu : u.val = 0 := by omega
  unfold iblk
  rw [View.read_apply]
  show V m c main_arg1 (((cfg0.win 1).blk t).view.emb (ix3 u r f)) = m ((c : Thread nD τ).loc main_arg1) (ix3 b j f)
  rw [V_main_arg1]
  refine congrArg (m ((c : Thread nD τ).loc main_arg1)) (funext fun a => Fin.ext ?_)
  match a with
  | ⟨0, _⟩ => show win0_1.index t (0 : Fin 3) * 1 + 1 * u.val = b.val; omega
  | ⟨1, _⟩ => show win0_1.index t (1 : Fin 3) * 1024 + 1 * r.val = j.val; omega
  | ⟨2, _⟩ => show win0_1.index t (2 : Fin 3) * 512 + 1 * f.val = f.val; omega

/-- The first weight window holds its whole array at every point. -/
theorem wk_block (c : Dev nD) (t : Fin cfg0.N) (f : Fin 512) (e : Fin 256) :
    (iblk m c 2 t : Vec F S512x256 .f32) (ix2 f e) = V m c main_v47 (ix2 f e) := by
  obtain ⟨-, -, -, -, -, -, e0, e1, -⟩ := idx_facts t
  unfold iblk
  rw [View.read_apply]
  show V m c main_v47 (((cfg0.win 2).blk t).view.emb (ix2 f e)) = V m c main_v47 (ix2 f e)
  refine congrArg (V m c main_v47) (funext fun a => Fin.ext ?_)
  match a with
  | ⟨0, _⟩ => show win0_2.index t (0 : Fin 2) * 512 + 1 * f.val = f.val; omega
  | ⟨1, _⟩ => show win0_2.index t (1 : Fin 2) * 256 + 1 * e.val = e.val; omega

/-- The second weight window holds its whole array at every point. -/
theorem wv_block (c : Dev nD) (t : Fin cfg0.N) (f : Fin 512) (d : Fin 256) :
    (iblk m c 3 t : Vec F S512x256 .f32) (ix2 f d) = V m c main_v48 (ix2 f d) := by
  obtain ⟨-, -, -, -, -, -, -, -, e0, e1, -⟩ := idx_facts t
  unfold iblk
  rw [View.read_apply]
  show V m c main_v48 (((cfg0.win 3).blk t).view.emb (ix2 f d)) = V m c main_v48 (ix2 f d)
  refine congrArg (V m c main_v48) (funext fun a => Fin.ext ?_)
  match a with
  | ⟨0, _⟩ => show win0_3.index t (0 : Fin 2) * 512 + 1 * f.val = f.val; omega
  | ⟨1, _⟩ => show win0_3.index t (1 : Fin 2) * 256 + 1 * d.val = d.val; omega

/-- The output block at point `t` stands on batch `t / 4`'s rows of the result. -/
theorem out_block_emb (t : Fin cfg0.N) (b : Fin 64) (hb : b.val = t.val / 4) (u : Fin 1) (s : Fin 8) (d : Fin 256) :
    ((cfg0.win 4).blk t).view.emb (ix3 u s d) = (ix3 b s d : S64x8x256.Idx) := by
  obtain ⟨-, -, -, -, -, -, -, -, -, -, e0, e1, e2⟩ := idx_facts t
  have hu : u.val = 0 := by omega
  refine funext fun a => Fin.ext ?_
  match a with
  | ⟨0, _⟩ => show win0_4.index t (0 : Fin 3) * 1 + 1 * u.val = b.val; omega
  | ⟨1, _⟩ => show win0_4.index t (1 : Fin 3) * 8 + 1 * s.val = s.val; omega
  | ⟨2, _⟩ => show win0_4.index t (2 : Fin 3) * 256 + 1 * d.val = d.val; omega

end Cert.KernelIdeal.Blocks

end
-- ==== Proof.HostPrefix.lean ====
/-
  What the host computes before the kernel is launched. Both programs prepare the query the same way — rotate each
  consecutive pair of lanes by the position's angle, then normalise every row to zero mean and unit variance and apply
  the per-lane gain and offset —, operation for operation, so the array the kernel's query window reads is the very
  term the reference contracts with its keys. The kernel's two weight windows read the projection matrices transposed.
-/
import proofs.«109531_j28166395528048_1_alg».proof.Proof.Gen.KernelIdeal.Frame
import proofs.«109531_j28166395528048_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxRecDepth 8192 in
set_option maxHeartbeats 2000000 in
/-- The query window's array is the reference's rotated and normalised query, as a term of the arguments. -/
theorem V_query (c : Dev nD) :
    (V m c main_v46 : S64x8x256.Idx → Elt F .f32)
      = Cert.ReferenceIdeal.Read.val_main_v46 (F := F) (m ((c : Thread nD τ).loc main_arg0))
          (m ((c : Thread nD τ).loc main_arg2)) (m ((c : Thread nD τ).loc main_arg3))
          (m ((c : Thread nD τ).loc main_arg4)) (m ((c : Thread nD τ).loc main_arg5)) := by
  dsimp only [V, hostOps0]
  after_results_simp <;> rfl

/-- The first weight window's array is the key projection matrix transposed. -/
theorem V_wk (c : Dev nD) :
    (V m c main_v47 : S512x256.Idx → Elt F .f32)
      = transpose S512x256 [1, 0] (m ((c : Thread nD τ).loc main_arg6)) transposes_S256x512_S512x256_1_0 := by
  dsimp only [V, hostOps0]
  after_results_simp <;> rfl

/-- The second weight window's array is the value projection matrix transposed. -/
theorem V_wv (c : Dev nD) :
    (V m c main_v48 : S512x256.Idx → Elt F .f32)
      = transpose S512x256 [1, 0] (m ((c : Thread nD τ).loc main_arg7)) transposes_S256x512_S512x256_1_0 := by
  dsimp only [V, hostOps0]
  after_results_simp <;> rfl

end Cert.KernelIdeal.HostPrefix

end
-- ==== Proof.Accumulate.lean ====
/-
  The kernel's result array. Over a batch's four grid points the accumulator goes from the zero block to the zero block
  plus the four key tiles' contributions, each point adding its tile's 1024 scaled score-times-value terms to what the
  point before left; the output block is the accumulator after the point, and it is written back once per batch, after
  the fourth tile. So batch `b`'s rows of the result are `0 + ∑ k < 4, ∑ r < 1024, term (1024·k + r)`, which is the sum
  over all 4096 key positions: the unnormalised attention of the specification, whole.
-/
import proofs.«109531_j28166395528048_1_alg».proof.Proof.Gen.KernelIdeal.Value
import proofs.«109531_j28166395528048_1_alg».proof.Proof.Spec
import proofs.«109531_j28166395528048_1_alg».proof.Proof.TileValue
import proofs.«109531_j28166395528048_1_alg».proof.Proof.Cases
import proofs.«109531_j28166395528048_1_alg».proof.Proof.Blocks
import proofs.«109531_j28166395528048_1_alg».proof.Proof.HostPrefix
import Idealize.ShloMosaic.Lib.ValueLayout

noncomputable section

namespace Cert.KernelIdeal.Accumulate

open Cert.KernelIdeal Cert.KernelIdeal.Gen Idealize.ShloMosaic Idealize.ShloMosaic.TcCoe Idealize.SL.Sem
open Idealize.ShloMosaic.ValueIdx
open Idealize.ShloMosaic.Pipeline (Dat)
open Cert.KeyTiles

variable (m : (ℓ : Loc nD τ sig) → Buf (Elt Ideal) ℓ) (ρ : Dev nD → PrngReg)

/-! ## One point's contribution -/

/-- A slab's contribution to accumulator entry `i = (s, d)`, from the point's four input blocks. -/
def tileOf (x : Vec Ideal S1x1024x512 .f32) (wk wv : Vec Ideal S512x256 .f32) (q : Vec Ideal S1x8x256 .f32)
    (i : S8x256.Idx) : EReal :=
  ∑ r : Fin 1024,
    ((∑ e : Fin 256, q (ix3 (0 : Fin 1) (i 0) e) * ∑ f : Fin 512, x (ix3 (0 : Fin 1) r f) * wk (ix2 f e))
        * Ideal.ofBits .f32 0x3D800000#32)
      * ∑ f : Fin 512, x (ix3 (0 : Fin 1) r f) * wv (ix2 f (i 1))

/-- The body's arithmetic payload adds the slab's contribution to the accumulator it is given. -/
theorem pay3_eq (x : Vec Ideal S1x1024x512 .f32) (wk wv : Vec Ideal S512x256 .f32) (q : Vec Ideal S1x8x256 .f32)
    (acc : Vec Ideal S8x256 .f32) (i : S8x256.Idx) :
    k0_pay3 (F := Ideal) x wk wv q acc i = acc i + tileOf x wk wv q i := by
  obtain ⟨s, d, rfl⟩ : ∃ (s : Fin 8) (d : Fin 256), i = ix2 s d := ⟨i 0, i 1, eq_ix2 i⟩
  exact Tile.pay3_apply x wk wv q acc s d

/-- The zero block the first tile starts from. -/
theorem pay2_zero (i : S8x256.Idx) : k0_pay2 (F := Ideal) i = 0 := by
  unfold k0_pay2
  rw [shapeCast_self]
  exact Ideal.ofBits_zero_f32

/-- Point `n`'s contribution, as a function of every natural (zero past the grid, where it is never used). -/
def addend (c : Dev nD) (n : ℕ) (i : S8x256.Idx) : EReal :=
  if h : n < cfg0.N then
    tileOf (iblk m c 1 ⟨n, h⟩) (iblk m c 2 ⟨n, h⟩) (iblk m c 3 ⟨n, h⟩) (iblk m c 0 ⟨n, h⟩) i
  else 0

/-! ## The accumulator and the output block after each point -/

/-- After point `t` the accumulator holds the zero block plus the contributions of its batch's points up to `t`. -/
theorem acc_at (c : Dev nD) (t : Fin cfg0.N) (i : S8x256.Idx) :
    (outsAt0 m c t.val t.isLt).2 i
      = k0_pay2 (F := Ideal) i + ∑ s ∈ Finset.range (t.val % 4 + 1), addend m c (4 * (t.val / 4) + s) i := by
  rw [Value.soutsAt0_0_eq]
  refine Pipeline.accAt_add_apply (ι := S8x256.Idx) (β := EReal)
    (fun n h => Value.scAt0_0 m c n h (VS0_0.read (Elt Ideal) VS0_0.junk)) (Value.scAt0_0 m c)
    (k0_pay2 (F := Ideal)) (addend m c) (4 * (t.val / 4)) 3 ?_ ?_ (t.val % 4) (by omega) _ i
  · intro h j
    have h0 : (4 * (t.val / 4)) % 4 = 0 := Nat.mul_mod_right _ _
    unfold Value.scAt0_0
    rw [dif_pos h0]
    refine (congrFun (Cases.acc_first (F := Ideal) c (grid0.coords (⟨4 * (t.val / 4), h⟩ : Fin cfg0.N)) (ms0_0 (⟨4 * (t.val / 4), h⟩ : Fin cfg0.N)) (hs0_0 (⟨4 * (t.val / 4), h⟩ : Fin cfg0.N)) (ms0_1 (⟨4 * (t.val / 4), h⟩ : Fin cfg0.N)) (hs0_1 (⟨4 * (t.val / 4), h⟩ : Fin cfg0.N)) (ms0_2 (⟨4 * (t.val / 4), h⟩ : Fin cfg0.N)) (hs0_2 (⟨4 * (t.val / 4), h⟩ : Fin cfg0.N)) (ms0_3 (⟨4 * (t.val / 4), h⟩ : Fin cfg0.N)) (hs0_3 (⟨4 * (t.val / 4), h⟩ : Fin cfg0.N)) (ms0_4 (⟨4 * (t.val / 4), h⟩ : Fin cfg0.N)) (hs0_4 (⟨4 * (t.val / 4), h⟩ : Fin cfg0.N)) scM0_0 (Memref.isWhole_whole _) ((hcond0_0 (⟨4 * (t.val / 4), h⟩ : Fin cfg0.N)).mpr h0) (iblk m c 0 (⟨4 * (t.val / 4), h⟩ : Fin cfg0.N)) (iblk m c 1 (⟨4 * (t.val / 4), h⟩ : Fin cfg0.N)) (iblk m c 2 (⟨4 * (t.val / 4), h⟩ : Fin cfg0.N)) (iblk m c 3 (⟨4 * (t.val / 4), h⟩ : Fin cfg0.N))) j).trans ?_
    rw [pay3_eq]
    unfold addend
    rw [dif_pos h]
  · intro n h acc j hlo hhi
    have h0 : ¬n % 4 = 0 := by omega
    unfold Value.scAt0_0
    rw [dif_neg h0]
    refine (congrFun (Cases.acc_later (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hc => h0 ((hcond0_0 (⟨n, h⟩ : Fin cfg0.N)).mp hc)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) j).trans ?_
    rw [pay3_eq]
    unfold addend
    rw [dif_pos h]

/-- After every point the output block is the accumulator, with a leading unit axis. -/
theorem out_eq_acc (c : Dev nD) (t : Fin cfg0.N) :
    (outsAt0 m c t.val t.isLt).1 = k0_pay1 (F := Ideal) (outsAt0 m c t.val t.isLt).2 := by
  by_cases h0 : t.val % 4 = 0
  · rw [outsAt0_A m c t h0]
    dsimp only
    exact (Cases.out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).trans
      (congrArg (k0_pay1 (F := Ideal)) (Cases.acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)).symm)
  · rw [outsAt0_B m c t h0]
    dsimp only
    exact (Cases.out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hc => h0 ((hcond0_0 t).mp hc)) (iblk m c 0 t) (iblk m c 1 t) (iblk m c 2 t) (iblk m c 3 t) _).trans
      (congrArg (k0_pay1 (F := Ideal)) (Cases.acc_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hc => h0 ((hcond0_0 t).mp hc)) (iblk m c 0 t) (iblk m c 1 t) (iblk m c 2 t) (iblk m c 3 t) _).symm)

/-! ## A point's contribution in terms of the arrays -/

/-- The query array the kernel is launched on: the rotated and normalised query the host prepared. -/
abbrev query (c : Dev nD) : S64x8x256.Idx → EReal := V m c main_v46

/-- A slab's contribution when the four blocks' entries are known. -/
theorem tileOf_eq (x : Vec Ideal S1x1024x512 .f32) (wk wv : Vec Ideal S512x256 .f32) (q : Vec Ideal S1x8x256 .f32)
    (s : Fin 8) (d : Fin 256) (Q : Fin 256 → EReal) (X : Fin 1024 → Fin 512 → EReal) (WK : Fin 256 → Fin 512 → EReal)
    (WV : Fin 512 → EReal) (hq : ∀ e, q (ix3 (0 : Fin 1) s e) = Q e) (hx : ∀ r f, x (ix3 (0 : Fin 1) r f) = X r f)
    (hwk : ∀ f e, wk (ix2 f e) = WK e f) (hwv : ∀ f, wv (ix2 f d) = WV f) :
    tileOf x wk wv q (ix2 s d)
      = ∑ r : Fin 1024, ((∑ e : Fin 256, Q e * ∑ f : Fin 512, X r f * WK e f) * Ideal.ofBits .f32 0x3D800000#32)
          * ∑ f : Fin 512, X r f * WV f := by
  show (∑ r : Fin 1024,
    ((∑ e : Fin 256, q (ix3 (0 : Fin 1) s e) * ∑ f : Fin 512, x (ix3 (0 : Fin 1) r f) * wk (ix2 f e))
        * Ideal.ofBits .f32 0x3D800000#32)
      * ∑ f : Fin 512, x (ix3 (0 : Fin 1) r f) * wv (ix2 f d)) = _
  simp only [hq, hx, hwk, hwv]

/-- Point `n` = tile `k` of batch `b` contributes that tile's 1024 key terms. -/
theorem addend_eq (c : Dev nD) (n : ℕ) (h : n < cfg0.N) (b : Fin 64) (k : Fin 4) (hb : b.val = n / 4) (hk : k.val = n % 4)
    (s : Fin 8) (d : Fin 256) :
    addend m c n (ix2 s d)
      = ∑ r : Fin 1024, keyTerm (query m c) (m ((c : Thread nD τ).loc main_arg1)) (m ((c : Thread nD τ).loc main_arg6)) (m ((c : Thread nD τ).loc main_arg7)) b s d (keyIx k r) := by
  unfold addend
  rw [dif_pos h]
  exact tileOf_eq (iblk m c 1 ⟨n, h⟩) (iblk m c 2 ⟨n, h⟩) (iblk m c 3 ⟨n, h⟩) (iblk m c 0 ⟨n, h⟩) s d
    (fun e => query m c (ix3 b s e)) (fun r f => (m ((c : Thread nD τ).loc main_arg1)) (ix3 b (keyIx k r) f))
    (fun e f => (m ((c : Thread nD τ).loc main_arg6)) (ix2 e f)) (fun f => (m ((c : Thread nD τ).loc main_arg7)) (ix2 d f))
    (fun e => Blocks.query_block m c ⟨n, h⟩ b hb 0 s e)
    (fun r f => Blocks.slab_block m c ⟨n, h⟩ b hb (keyIx k r) 0 r (by rw [keyIx_val, hk]) f)
    (fun f e => (Blocks.wk_block m c ⟨n, h⟩ f e).trans (by rw [HostPrefix.V_wk, transpose_ix2_apply]))
    (fun f => (Blocks.wv_block m c ⟨n, h⟩ f d).trans (by rw [HostPrefix.V_wv, transpose_ix2_apply]))

/-! ## The result array -/

/-- The whole result: the specification's unnormalised attention of the launched query and the argument arrays. -/
def result (c : Dev nD) : S64x8x256.Idx → EReal :=
  attn (query m c) (m ((c : Thread nD τ).loc main_arg1)) (m ((c : Thread nD τ).loc main_arg6)) (m ((c : Thread nD τ).loc main_arg7))

/-- What a batch's last point writes back is that batch's rows of the result. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 256 := lt_of_lt_of_eq t.isLt N_0
  rw [Value.flushed4, out_eq_acc]
  funext y
  obtain ⟨u, s, d, rfl⟩ : ∃ (u : Fin 1) (s : Fin 8) (d : Fin 256), y = ix3 u s d := ⟨y 0, y 1, y 2, eq_ix3 y⟩
  show k0_pay1 (outsAt0 m c t.val t.isLt).2 (ix3 u s d) = result m c (((cfg0.win 4).blk t).view.emb (ix3 u s d))
  rw [Blocks.out_block_emb t ⟨t.val / 4, by omega⟩ rfl u s d]
  unfold k0_pay1
  rw [shapeCast_ab_1ab_apply, acc_at, pay2_zero, zero_add, h3, Finset.sum_range]
  unfold result
  rw [attn_eq_tiles]
  refine Finset.sum_congr rfl fun k _ => ?_
  exact addend_eq m c (4 * (t.val / 4) + k.val) (by have hN' : cfg0.N = 256 := N_0; omega) ⟨t.val / 4, by omega⟩ k
    (by show t.val / 4 = (4 * (t.val / 4) + k.val) / 4; omega) (by omega) s d

/-- An index of the result lies in point `t`'s block iff each coordinate is in the block's range on its axis. -/
theorem mem_blk (t : Fin cfg0.N) (i : S64x8x256.Idx) :
    i ∈ ((cfg0.win 4).blk t).view.set ↔ ∀ a : Fin 3, win0_4.index t a * S1x8x256.size a ≤ (i a).val
      ∧ (i a).val < win0_4.index t a * S1x8x256.size a + S1x8x256.size a := by
  show i ∈ ((View.whole main_v49).slice (win0_4.rect t)).set ↔ _
  rw [View.set_slice_whole, Rect.mem_set_unit]
  exact Iff.rfl

/-- Every index of the result is written back: batch `b`'s rows by that batch's last point `4·b + 3`. -/
theorem cover (i : S64x8x256.Idx) :
    ∃ t : Fin cfg0.N, (cfg0.win 4).flush t = true ∧ i ∈ ((cfg0.win 4).blk t).view.set := by
  have h0 : (i 0).val < 64 := (i 0).isLt
  have h1 : (i 1).val < 8 := (i 1).isLt
  have h2 : (i 2).val < 256 := (i 2).isLt
  refine ⟨⟨4 * (i 0).val + 3, by have hN' : cfg0.N = 256 := N_0; omega⟩, (flush0_4 _).mpr (by show (4 * (i 0).val + 3) % 4 = 3; omega), ?_⟩
  rw [mem_blk]
  obtain ⟨-, -, -, -, -, -, -, -, -, -, e0, e1, e2⟩ := Blocks.idx_facts (⟨4 * (i 0).val + 3, by have hN' : cfg0.N = 256 := N_0; omega⟩ : Fin cfg0.N)
  have e0' : win0_4.index (⟨4 * (i 0).val + 3, by have hN' : cfg0.N = 256 := N_0; omega⟩ : Fin cfg0.N) (0 : Fin 3) = (4 * (i 0).val + 3) / 4 := e0
  intro a
  match a with
  | ⟨0, _⟩ =>
    show win0_4.index _ (0 : Fin 3) * 1 ≤ (i 0).val ∧ (i 0).val < win0_4.index _ (0 : Fin 3) * 1 + 1
    rw [e0']; omega
  | ⟨1, _⟩ =>
    show win0_4.index _ (1 : Fin 3) * 8 ≤ (i 1).val ∧ (i 1).val < win0_4.index _ (1 : Fin 3) * 8 + 8
    rw [e1]; omega
  | ⟨2, _⟩ =>
    show win0_4.index _ (2 : Fin 3) * 256 ≤ (i 2).val ∧ (i 2).val < win0_4.index _ (2 : Fin 3) * 256 + 256
    rw [e2]; omega

/-- After the run the result array is the specification's function of the launched query and the arguments. -/
theorem final (c : Dev nD) : (dats m 0 c).arrAt 4 cfg0.N = result m c :=
  (dats m 0 c).arrAt_eq_of_cover 4 (result m c) (flushed_eq m c) cover

/-- The kernel's run, read: the result array at the specification's function, the arguments unchanged. -/
theorem run : θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Accumulate

end
-- ==== Proof.RefValue.lean ====
/-
  The reference's result, index by index, is the specification's function. Its four contractions read, at `(b, s, d)`,

      ∑ j < 4096, ((∑ e, q b s e · ∑ f, kv b j f · wk e f) / 16) · ∑ f, kv b j f · wv d f

  with `q` its own rotated and normalised query; the quotient by 16 is the product with 0.0625 on every extended real.
-/
import proofs.«109531_j28166395528048_1_alg».proof.Proof.Gen.ReferenceIdeal.Read
import proofs.«109531_j28166395528048_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.KeyTiles

/-- The operand indices of the reference's contractions at `(b, s, d)`, by coordinates. -/
theorem lidx52 (b : Fin 64) (s : Fin 8) (d : Fin 256) (j : Fin 4096) : lidx_main_v52 (ix3 b s d) j = ix3 b s j :=
  funext fun a => Fin.ext (by match a with | ⟨0, _⟩ => rfl | ⟨1, _⟩ => rfl | ⟨2, _⟩ => rfl)
theorem ridx52 (b : Fin 64) (s : Fin 8) (d : Fin 256) (j : Fin 4096) : ridx_main_v52 (ix3 b s d) j = ix3 b j d :=
  funext fun a => Fin.ext (by match a with | ⟨0, _⟩ => rfl | ⟨1, _⟩ => rfl | ⟨2, _⟩ => rfl)
theorem lidx49 (b : Fin 64) (s : Fin 8) (j : Fin 4096) (e : Fin 256) : lidx_main_v49 (ix3 b s j) e = ix3 b s e :=
  funext fun a => Fin.ext (by match a with | ⟨0, _⟩ => rfl | ⟨1, _⟩ => rfl | ⟨2, _⟩ => rfl)
theorem ridx49 (b : Fin 64) (s : Fin 8) (j : Fin 4096) (e : Fin 256) : ridx_main_v49 (ix3 b s j) e = ix3 b j e :=
  funext fun a => Fin.ext (by match a with | ⟨0, _⟩ => rfl | ⟨1, _⟩ => rfl | ⟨2, _⟩ => rfl)
theorem lidx47 (b : Fin 64) (j : Fin 4096) (e : Fin 256) (f : Fin 512) : lidx_main_v47 (ix3 b j e) f = ix3 b j f :=
  funext fun a => Fin.ext (by match a with | ⟨0, _⟩ => rfl | ⟨1, _⟩ => rfl | ⟨2, _⟩ => rfl)
theorem ridx47 (b : Fin 64) (j : Fin 4096) (e : Fin 256) (f : Fin 512) : ridx_main_v47 (ix3 b j e) f = ix2 e f :=
  funext fun a => Fin.ext (by match a with | ⟨0, _⟩ => rfl | ⟨1, _⟩ => rfl)
theorem lidx48 (b : Fin 64) (j : Fin 4096) (d : Fin 256) (f : Fin 512) : lidx_main_v48 (ix3 b j d) f = ix3 b j f :=
  funext fun a => Fin.ext (by match a with | ⟨0, _⟩ => rfl | ⟨1, _⟩ => rfl | ⟨2, _⟩ => rfl)
theorem ridx48 (b : Fin 64) (j : Fin 4096) (d : Fin 256) (f : Fin 512) : ridx_main_v48 (ix3 b j d) f = ix2 d f :=
  funext fun a => Fin.ext (by match a with | ⟨0, _⟩ => rfl | ⟨1, _⟩ => rfl)

/-- The reference's result term is the specification's function of its own query term and the argument arrays. -/
theorem result_eq (x0 : (⟨S64x8x256, .f32⟩ : BufTy).Contents (Elt Ideal)) (x1 : (⟨S64x4096x512, .f32⟩ : BufTy).Contents (Elt Ideal))
    (x2 x3 : (⟨S8x128, .f32⟩ : BufTy).Contents (Elt Ideal)) (x4 x5 : (⟨S256, .f32⟩ : BufTy).Contents (Elt Ideal))
    (x6 x7 : (⟨S256x512, .f32⟩ : BufTy).Contents (Elt Ideal)) :
    val_main_v52 (F := Ideal) x0 x1 x2 x3 x4 x5 x6 x7 = attn (val_main_v46 (F := Ideal) x0 x2 x3 x4 x5) x1 x6 x7 := by
  funext i
  obtain ⟨b, s, d, rfl⟩ : ∃ (b : Fin 64) (s : Fin 8) (d : Fin 256), i = ix3 b s d := ⟨i 0, i 1, i 2, eq_ix3 i⟩
  rw [val_main_v52_apply]
  unfold attn keyTerm
  refine Finset.sum_congr rfl fun j _ => ?_
  rw [lidx52, ridx52, val_main_v51_apply, val_main_v49_apply, val_main_v50_apply, val_main_cst_4_apply, val_main_v48_apply]
  simp only [lidx49, ridx49, lidx48, ridx48, val_main_v47_apply, lidx47, ridx47, Ideal.hostDivf_def, Ideal.ofBits_def, div_sixteen]

end Cert.ReferenceIdeal.RefValue

end
-- ==== Proof.lean ====
/-
  A cross-attention without normalisation: a rotated and layer-normalised query `q` [64, 8, 256] against key and value
  projections of `kv` [64, 4096, 512],

      out b s d = ∑ j < 4096, ((∑ e, q b s e · ∑ f, kv b j f · Wk e f) / 16) · ∑ f, kv b j f · Wv d f .

  The kernel walks a grid of 64 batches by 4 key tiles of 1024 positions. At each point it projects the tile's slab
  with the two transposed weight matrices, contracts the query block with the projected keys, scales by 0.0625,
  contracts the scores with the projected values, and adds the [8, 256] product to an accumulator that it zeroes at a
  batch's first tile; the accumulator is copied to the output block, which is written back after the batch's fourth
  tile. The reference forms the same four contractions over all 4096 positions at once and divides by 16.

  Over the extended reals the two agree index by index. Every change of float format is the identity, a matrix product
  into a zero accumulator is the plain sum, the chain `(((0 + T₀) + T₁) + T₂) + T₃` of the four tiles' sums is the sum
  over all key positions cut into consecutive runs of 1024 (associativity and commutativity of `+` only, so the
  infinities need no care and the finiteness of the inputs is never used), and `x / 16 = x · 0.0625` for every
  extended real `x`. The query preparation is the same sequence of host operations in both programs, so the array
  the kernel is launched on is the reference's own query term. The ideal pass rewrote nothing.
-/
import proofs.«109531_j28166395528048_1_alg».proof.Defs
import proofs.«109531_j28166395528048_1_alg».proof.Proof.Gen.Kernel
import proofs.«109531_j28166395528048_1_alg».proof.Proof.Gen.Kernel.Frame
import proofs.«109531_j28166395528048_1_alg».proof.Proof.Gen.KernelIdeal
import proofs.«109531_j28166395528048_1_alg».proof.Proof.Gen.KernelIdeal.Frame
import proofs.«109531_j28166395528048_1_alg».proof.Proof.Gen.KernelIdeal.Value
import proofs.«109531_j28166395528048_1_alg».proof.Proof.Gen.ReferenceIdeal
import proofs.«109531_j28166395528048_1_alg».proof.Proof.Gen.ReferenceIdeal.Run
import proofs.«109531_j28166395528048_1_alg».proof.Proof.Gen.ReferenceIdeal.Read
import proofs.«109531_j28166395528048_1_alg».proof.Proof.Gen.Pre_finite_inputs
import proofs.«109531_j28166395528048_1_alg».proof.Proof.Accumulate
import proofs.«109531_j28166395528048_1_alg».proof.Proof.RefValue
import proofs.«109531_j28166395528048_1_alg».proof.Proof.HostPrefix
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the unnormalised attention of the same query and the same arguments. -/
theorem algebraic : Cert.algebraic_KernelIdeal_ReferenceIdeal := by
  intro m ρ m' ρ' _ hagree
  refine ⟨fun c => Cert.KernelIdeal.Accumulate.result m c, Cert.KernelIdeal.Accumulate.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v52_eq, Cert.ReferenceIdeal.RefValue.result_eq, a0, a1, a2, a3, a4, a5, a6, a7]
  show _ = Cert.KernelIdeal.Accumulate.result m c
  unfold Cert.KernelIdeal.Accumulate.result Cert.KernelIdeal.Accumulate.query
  rw [Cert.KernelIdeal.HostPrefix.V_query]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
